-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x3 : Shape := ⟨2, ![512, 3]⟩
abbrev S4096x3 : Shape := ⟨2, ![4096, 3]⟩
abbrev S512x1 : Shape := ⟨2, ![512, 1]⟩
abbrev S1x4096 : Shape := ⟨2, ![1, 4096]⟩
abbrev S512x4096 : Shape := ⟨2, ![512, 4096]⟩

abbrev nBuf : Space → Nat
  | .hbm => 12
  | .vmem => 12
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i1⟩
  | .hbm, ⟨11, _⟩ => ⟨S8192x8192, .i1⟩
  | .local _ .vmem, ⟨0, _⟩ => ⟨S512x3, .f32⟩
  | .local _ .vmem, ⟨1, _⟩ => ⟨S512x3, .f32⟩
  | .local _ .vmem, ⟨2, _⟩ => ⟨S4096x3, .f32⟩
  | .local _ .vmem, ⟨3, _⟩ => ⟨S4096x3, .f32⟩
  | .local _ .vmem, ⟨4, _⟩ => ⟨S512x1, .f32⟩
  | .local _ .vmem, ⟨5, _⟩ => ⟨S512x1, .f32⟩
  | .local _ .vmem, ⟨6, _⟩ => ⟨S1x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .i32⟩
  | .local _ .vmem, ⟨11, _⟩ => ⟨S512x4096, .i32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x4096 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8192x3_S8192_d1 : S8192x3.ReducesTo [1] S8192
  h_S_ : 0 < S_.numel
  shapeCasts_S8192_S8192x1 : S8192.ShapeCasts S8192x1
  shapeCasts_S8192_S1x8192 : S8192.ShapeCasts S1x8192
  inb_S512x3_S512x3_0_0 : ∀ a, (![0, 0] : Fin 2 → Nat) a + S512x3.size a ≤ S512x3.size a
  h_S512x3 : 0 < S512x3.numel
  inb_S4096x3_S4096x3_0_0 : ∀ a, (![0, 0] : Fin 2 → Nat) a + S4096x3.size a ≤ S4096x3.size a
  h_S4096x3 : 0 < S4096x3.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  natLt_1_32 : 1 < 32
  bcast_S_S8192x8192 : S_.BroadcastsInDim S8192x8192 (![] : Fin 0 → Fin S8192x8192.rank)
  dot_S512x3_S4096x3_S512x4096_1_1_0_0_n_n_wf : DotDims.WF S512x3 S4096x3 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S8192x3.size a
  hwx0_0 : ∀ i : grid0.Coords, EltTy.bits .f32 = 32 ∨ (Rect.block (s := S8192x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S8192x3.size a
  hwx0_1 : ∀ i : grid0.Coords, EltTy.bits .f32 = 32 ∨ (Rect.block (s := S8192x3) S4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x8192.size a
  hwx0_3 : ∀ i : grid0.Coords, EltTy.bits .f32 = 32 ∨ (Rect.block (s := S1x8192) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x8192.size a
  hwx0_4 : ∀ i : grid0.Coords, EltTy.bits .f32 = 32 ∨ (Rect.block (s := S8192x8192) S512x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x8192.size a
  hwx0_5 : ∀ i : grid0.Coords, EltTy.bits .i32 = 32 ∨ (Rect.block (s := S8192x8192) S512x4096.size (cc0_transform_5 i) (hinb0_5 i)).WholeWords (EltTy.packing .i32)

variable [Facts₀]

def dot_S512x3_S4096x3_S512x4096_1_1_0_0_n_n : DotDims S512x3 S4096x3 S512x4096 where
  lhsContracting := [1]
  rhsContracting := [1]
  lhsNonContracting := [0]
  rhsNonContracting := [0]
  lhsBatch := []
  rhsBatch := []
  wf := dot_S512x3_S4096x3_S512x4096_1_1_0_0_n_n_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S3x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.BodyK.lean ====
/-
  The radius-graph kernel's body at one grid point, and the pipeline's proof data.

  The pallas_call tiles the 8192 x 8192 result into 512 x 4096 blocks over a 16 x 2 grid.  At point (i, j) the body
  reads rows 512 i .. 512 i + 511 of the positions (window 0), rows 4096 j .. 4096 j + 4095 of the SAME positions array
  (window 1), the matching 512 x 1 column of squared norms (window 2) and the 1 x 4096 row of squared norms (window 3),
  and overwrites both output blocks whole: the masked squared distance (window 4) and the mask as 32-bit words
  (window 5).  Each output block after the body is therefore one store's payload, a pure function of the four input
  blocks; the output buffers' earlier contents are loaded and never used.
  Windows 0 and 1 sit on one array, so each holds HALF of that array's share.
-/
import proofs.«115924_j59072980189797_2_alg».proof.Proof.Gen.Kernel.Launch
import proofs.«115924_j59072980189797_2_alg».proof.Proof.Gen.Kernel.Skeleton
import proofs.«115924_j59072980189797_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation; -/
abbrev V₀ (c : Dev nD) : Valuation τ sig (Elt F) := fun b => m ((c : Dev nD), b)
/-- and when the region is entered: the five host operations before it have run (the squared norms, as a column
    and as a row). -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and store is of a whole buffer -/

abbrev rI : Rect S512x3 := Rect.unit (s := S512x3) ![0, 0] S512x3.size inb_S512x3_S512x3_0_0
abbrev rJ : Rect S4096x3 := Rect.unit (s := S4096x3) ![0, 0] S4096x3.size inb_S4096x3_S4096x3_0_0
abbrev rC : Rect S512x1 := Rect.unit (s := S512x1) ![0, 0] S512x1.size inb_S512x1_S512x1_0_0
abbrev rR : Rect S1x4096 := Rect.unit (s := S1x4096) ![0, 0] S1x4096.size inb_S1x4096_S1x4096_0_0
abbrev rO : Rect S512x4096 := Rect.unit (s := S512x4096) ![0, 0] S512x4096.size inb_S512x4096_S512x4096_0_0

/-! ## What the body leaves in each output buffer -/

/-- The masked squared distances of the block: the one store into window 4's buffer. -/
def outD (x0 : Vec F S512x3 .f32) (x1 : Vec F S4096x3 .f32) (x2 : Vec F S512x1 .f32) (x3 : Vec F S1x4096 .f32) : Vec F S512x4096 .f32 :=
  View.canon [⟨rO, k0_pay3 (View.ld x0 rI) (View.ld x1 rJ) (View.ld x2 rC) (View.ld x3 rR)⟩]

/-- The block's mask as words: the one store into window 5's buffer. -/
def outM (x0 : Vec F S512x3 .f32) (x1 : Vec F S4096x3 .f32) (x2 : Vec F S512x1 .f32) (x3 : Vec F S1x4096 .f32) : Vec F S512x4096 .i32 :=
  View.canon [⟨rO, k0_pay4 (View.ld x0 rI) (View.ld x1 rJ) (View.ld x2 rC) (View.ld x3 rR)⟩]

/-- A whole-buffer store covers the buffer. -/
theorem coverD (p0 : Vec F S512x4096 .f32) (y : S512x4096.Idx) :
    ∃ pc ∈ ([⟨rO, p0⟩] : List (View.Piece (Elt F) S512x4096 .f32)), y ∈ pc.1.set :=
  View.cover_of_tiled [⟨rO, p0⟩] S512x4096.size (by rfl) y
theorem coverM (p0 : Vec F S512x4096 .i32) (y : S512x4096.Idx) :
    ∃ pc ∈ ([⟨rO, p0⟩] : List (View.Piece (Elt F) S512x4096 .i32)), y ∈ pc.1.set :=
  View.cover_of_tiled [⟨rO, p0⟩] S512x4096.size (by rfl) y

/-! ## The body's triple -/

set_option maxHeartbeats 1000000 in
/-- On whole staging buffers, the four inputs at known contents and the two outputs at anything, the body runs to the
    inputs as they were and the outputs at `outD` / `outM` of the inputs. -/
theorem sound_kernel (c : Dev nD) (E : Set ℕ) (i : grid0.Coords)
    (arg2 : Memref sig .tc .vmem S512x3 .f32) (harg2 : arg2.IsWhole) (arg3 : Memref sig .tc .vmem S4096x3 .f32) (harg3 : arg3.IsWhole)
    (arg4 : Memref sig .tc .vmem S512x1 .f32) (harg4 : arg4.IsWhole) (arg5 : Memref sig .tc .vmem S1x4096 .f32) (harg5 : arg5.IsWhole)
    (arg6 : Memref sig .tc .vmem S512x4096 .f32) (harg6 : arg6.IsWhole) (arg7 : Memref sig .tc .vmem S512x4096 .i32) (harg7 : arg7.IsWhole)
    (x0 : Vec F S512x3 .f32) (x1 : Vec F S4096x3 .f32) (x2 : Vec F S512x1 .f32) (x3 : Vec F S1x4096 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outD x0 x1 x2 x3) ∗ owns (c : Thread nD τ) arg7 fullShare (outM x0 x1 x2 x3)) -∗ K ⟨⟩))
      ⊢ wp frame (wpE (defs₀ (F := F)) Variants.none c none) E (cc0__radius_kernel i arg2 harg2 arg3 harg3 arg4 harg4 arg5 harg5 arg6 harg6 arg7 harg7) K := by
  simp only [cc0__radius_kernel_eq_skeleton]; unfold cc0__radius_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverD _)
  iexists _; isplitr
  swap; · iexact H5
  ipureintro
  exact View.read_writes_eq_canon _ _ _ (coverM _)

/-! ## The pipeline's proof data -/

/-- The proof data on core `c`: the arrays as the region finds them; after the body at point `t` each input buffer
    at its block and each output buffer at the store's payload of the four input blocks; the invariant the scoped
    buffers no window stages (there are none); nothing owed.  The positions array is read through two windows, each
    holding one half of its share; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outD (iblk m c 0 t) (iblk m c 1 t) (iblk m c 2 t) (iblk m c 3 t)
    | ⟨5, _⟩ => outM (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outD (iblk m c 0 t) (iblk m c 1 t) (iblk m c 2 t) (iblk m c 3 t) := by dsimp only [dats]
theorem after0_5 (c : Dev nD) (t : Fin cfg0.N) :
    (dats m 0 c).after 5 t = outM (iblk m c 0 t) (iblk m c 1 t) (iblk m c 2 t) (iblk m c 3 t) := by dsimp only [dats]

/-- An input window's current buffer holds its block whenever the body runs, fetched at that point or not: where it
    is not fetched the block index has not moved since it was, and the body left the buffer as it found it. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunK.lean ====
/-
  The launch of the radius-graph program: five host operations (the squared norms), the tiled kernel region, four host
  operations (the mask words compared against zero).

  @main is run as three segments.  Between segments a core holds all of its unscoped buffers whole, at a valuation:
  at launch the memory; after the first stretch the squared norms computed; after the region the two result arrays at
  what the pipeline's write-backs made of them; after the last stretch the Boolean mask.  At the region's entry the
  positions array, which two windows read, is split into its two half shares, one per window; at the exit the halves
  (both still at the entry contents: an input array is never written) are joined again.
-/
import proofs.«115924_j59072980189797_2_alg».proof.Proof.BodyK
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five distinct arrays behind the six windows -/

/-- The buffers behind the windows' arrays, each whole, listed: the positions (once), the column and the row of squared
    norms, the two results. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4_0) ↦{fullShare} W main_v4_0)
          ∗ (((c : Thread nD τ).loc main_v4_1) ↦{fullShare} W main_v4_1)) := by
  unfold Pipeline.arrBufs
  exact bigSep_eq_bigSepL_of_eq [main_arg0, main_v2, main_v3, main_v4_0, main_v4_1] (by decide) (by decide) _

/-- The pipeline's arrays at contents `Fa`, window by window: the positions array twice, at its two half shares. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v2) ↦{fullShare} Fa 2) ∗ (((c : Thread nD τ).loc main_v3) ↦{fullShare} Fa 3)
          ∗ (((c : Thread nD τ).loc main_v4_0) ↦{fullShare} Fa 4) ∗ (((c : Thread nD τ).loc main_v4_1) ↦{fullShare} Fa 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-! ## The valuations between the segments -/

/-- Core `c`'s buffers after the first stretch of host operations (when the region is entered); -/
abbrev Ve (c : Dev nD) : Valuation τ sig (Elt F) := StableHlo.after hostOps0 (V₀ m c)

open Classical in
/-- after the region: the two result arrays at what the write-backs made of them, every other buffer as the region
    found it; -/
def Vx (c : Dev nD) : Valuation τ sig (Elt F) :=
  Function.update (Function.update (Ve m c) (Proc.devRef .tc main_v4_0) ((dats m 0 c).arrAt 4 cfg0.N))
    (Proc.devRef .tc main_v4_1) ((dats m 0 c).arrAt 5 cfg0.N)

/-- and at the end, the last four host operations run. -/
abbrev Vn (c : Dev nD) : Valuation τ sig (Elt F) := StableHlo.after hostOps1 (Vx m c)

theorem Vx_mask (c : Dev nD) : Vx m c (Proc.devRef .tc main_v4_1) = (dats m 0 c).arrAt 5 cfg0.N := by
  unfold Vx; exact Function.update_self ..

theorem Vx_dist (c : Dev nD) : Vx m c (Proc.devRef .tc main_v4_0) = (dats m 0 c).arrAt 4 cfg0.N := by
  unfold Vx
  rw [Function.update_of_ne (StableHlo.devRef_ne_of_ne (by decide))]
  exact Function.update_self ..

theorem Vx_other (c : Dev nD) (b : Ref sig .tc) (h0 : b ≠ main_v4_0) (h1 : b ≠ main_v4_1) :
    Vx m c (Proc.devRef .tc b) = V m c b := by
  unfold Vx
  rw [Function.update_of_ne (StableHlo.devRef_ne_of_ne h1), Function.update_of_ne (StableHlo.devRef_ne_of_ne h0)]

/-- The buffers no window stages hold after the region what they held before it. -/
theorem unscopedRest_Vx (c : Dev nD) :
    (Pipeline.unscopedRest (Ix := Unit) (Name := ℕ) (U := UR sig nD τ) (Lvl := ℕ) spec0 c (fun b => Vx m c (Proc.devRef .tc b)) : sProp 𝕄)
      = Pipeline.unscopedRest spec0 c (V m c) := by
  unfold Pipeline.unscopedRest
  refine bigSep_congr fun b hb => ?_
  have hn : ∀ w, Pipeline.arrRef spec0 w ≠ b := fun w h =>
    (Finset.mem_sdiff.mp hb).2 (Finset.mem_image.mpr ⟨w, Finset.mem_univ _, h⟩)
  dsimp only
  rw [Vx_other m c b (fun h => hn 4 h.symm) (fun h => hn 5 h.symm)]

/-! ## The segments -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- The first stretch: the squared norms, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The last stretch: the mask words compared against zero, from what the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m) R

/-- All the unscoped buffers at a valuation are the five arrays and the rest. -/
theorem held_split (c : Dev nD) (W : Valuation τ sig (Elt F)) :
    (StableHlo.held (c : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held c W]
  exact Pipeline.unscopedBufs_split₀ cfgs 0 winFacts₀0.arr_unscoped c _

set_option backward.isDefEq.respectTransparency.types false in
/-- The region: entered from what the first stretch left, the positions array halved between its two windows, the other
    arrays whole, the remaining buffers bypassing; left with the halves joined and the results at their final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Ve m c) ∗ R c)
  post c := iprop(StableHlo.held (c : Thread nD τ) (Pipeline.ucRefs τ sig) (Vx m c) ∗ R c)
  X _ := iprop(emp)
  Y _ := iprop(emp)
  Z c := Pipeline.unscopedRest spec0 c (V m c)
  hentry c := by
    rw [held_split, arrBufs_chain, arrays_chain]
    iintro ⟨⟨⟨⟨Ha0, Hv2, Hv3, Hv40, Hv41⟩, Hrest⟩, HO⟩, -, -⟩
    have hs := (pointsTo_share (ℓ := (c : Thread nD τ).loc main_arg0) (I := Finset.univ) (f := V m c main_arg0) (Ix := Unit) (Name := ℕ) (U := UR sig nD τ) (Lvl := ℕ) (PosShare.mem_left_op_right fullShare)).1
    ihave H := hs $$ Ha0
    icases H with ⟨HL, HR⟩
    imodintro
    isplitl [HL HR Hv2 Hv3 Hv40 Hv41]
    · isplitl [HL]; · iexact HL
      isplitl [HR]; · iexact HR
      isplitl [Hv2]; · iexact Hv2
      isplitl [Hv3]; · iexact Hv3
      isplitl [Hv40]; · iexact Hv40
      iexact Hv41
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest spec0 c from rfl]
    iintro ⟨-, -, Hr⟩; iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [held_split, arrBufs_chain, arrays_chain, unscopedRest_Vx, Vx_mask, Vx_dist,
      Vx_other m c main_arg0 (by decide) (by decide), Vx_other m c main_v2 (by decide) (by decide), Vx_other m c main_v3 (by decide) (by decide)]
    rw [(dats m 0 c).arrAt_in 0 rfl, (dats m 0 c).arrAt_in 1 rfl, (dats m 0 c).arrAt_in 2 rfl, (dats m 0 c).arrAt_in 3 rfl]
    iintro ⟨⟨HL, HR, H2, H3, H4, H5⟩, HO, -, HZ⟩
    have hj := (pointsTo_share (ℓ := (c : Thread nD τ).loc main_arg0) (I := Finset.univ) (f := V m c main_arg0) (Ix := Unit) (Name := ℕ) (U := UR sig nD τ) (Lvl := ℕ) (PosShare.mem_left_op_right fullShare)).2
    ihave H0 := hj $$ [HL HR]
    · isplitl [HL]; · iexact HL
      iexact HR
    imodintro
    isplitr [HO]
    · isplitr [HZ]
      · isplitl [H0]; · iexact H0
        isplitl [H2]; · iexact H2
        isplitl [H3]; · iexact H3
        isplitl [H4]; · iexact H4
        iexact H5
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

set_option backward.isDefEq.respectTransparency.types false in
/-- At the compiled mesh, at any float instance, from any memory with zero counters: every weakly fair execution of @main
    on the TensorCores terminates, and in every final state every unscoped buffer holds what the three segments'
    valuations compute (`Vn`). -/
theorem run_main : θ_run defs (onTc (τ := τ) (main (F := F))) ⟨m, fun _ => 0, ρ⟩
    (fun r => ∀ c : Dev nD, ∀ b ∈ Pipeline.ucRefs τ sig, r.2.mem ((c : Thread nD τ).1, b) = Vn m c b) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vn m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vn m c b)
    (hfin := fun c s' => by
      unfold StableHlo.held
      iintro ⟨Hh, HSI⟩
      ihave Hr := (pointsTo_read_all (Pipeline.ucRefs τ sig) (fun b => ((c : Thread nD τ).1, b)) (Vn m c) s') $$ [Hh HSI]
      · isplitl [Hh] <;> iassumption
      icases Hr with ⟨%h, HSI⟩
      imodintro
      isplitr; · ipureintro; exact h
      iexact HSI)
    (hQ := fun _ h => h)

/-! ## The arguments at the end -/

/-- An unscoped TensorCore buffer is among the buffers the segments hold. -/
theorem mem_ucRefs (b : Ref sig .tc) (h : (Proc.devRef (τ := τ) .tc b).isScoped = false) :
    Proc.devRef .tc b ∈ Pipeline.ucRefs τ sig := by
  unfold Pipeline.ucRefs StableHlo.tcRefs
  exact Finset.mem_filter.mpr ⟨Finset.mem_map.mpr ⟨b, Finset.mem_univ _, rfl⟩, by rw [h]; exact Bool.false_ne_true⟩

/-- No segment writes the positions: they end as launched. -/
theorem Vn_arg0 (c : Dev nD) : Vn m c (Proc.devRef .tc main_arg0) = m ((c : Thread nD τ).loc main_arg0) := by
  have h1 : StableHlo.after hostOps1 (Vx m c) (Proc.devRef .tc main_arg0) = Vx m c (Proc.devRef .tc main_arg0) := by
    after_results <;> rfl
  have h0 : StableHlo.after hostOps0 (V₀ m c) (Proc.devRef .tc main_arg0) = m ((c : Thread nD τ).loc main_arg0) := by
    after_results <;> rfl
  exact h1.trans ((Vx_other m c main_arg0 (by decide) (by decide)).trans h0)

/-- THE FRAME: the program runs to the end from any memory, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_ucRefs main_arg0 rfl)).trans (Vn_arg0 m c)) (run_main m ρ)

end Cert.Kernel.Hand

end
-- ==== Proof.Body.lean ====
/-
  The radius-graph kernel's body at one grid point, and the pipeline's proof data.

  The pallas_call tiles the 8192 x 8192 result into 512 x 4096 blocks over a 16 x 2 grid.  At point (i, j) the body
  reads rows 512 i .. 512 i + 511 of the positions (window 0), rows 4096 j .. 4096 j + 4095 of the SAME positions array
  (window 1), the matching 512 x 1 column of squared norms (window 2) and the 1 x 4096 row of squared norms (window 3),
  and overwrites both output blocks whole: the masked squared distance (window 4) and the mask as 32-bit words
  (window 5).  Each output block after the body is therefore one store's payload, a pure function of the four input
  blocks; the output buffers' earlier contents are loaded and never used.
  Windows 0 and 1 sit on one array, so each holds HALF of that array's share.
-/
import proofs.«115924_j59072980189797_2_alg».proof.Proof.Gen.KernelIdeal.Launch
import proofs.«115924_j59072980189797_2_alg».proof.Proof.Gen.KernelIdeal.Skeleton
import proofs.«115924_j59072980189797_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation; -/
abbrev V₀ (c : Dev nD) : Valuation τ sig (Elt F) := fun b => m ((c : Dev nD), b)
/-- and when the region is entered: the five host operations before it have run (the squared norms, as a column
    and as a row). -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and store is of a whole buffer -/

abbrev rI : Rect S512x3 := Rect.unit (s := S512x3) ![0, 0] S512x3.size inb_S512x3_S512x3_0_0
abbrev rJ : Rect S4096x3 := Rect.unit (s := S4096x3) ![0, 0] S4096x3.size inb_S4096x3_S4096x3_0_0
abbrev rC : Rect S512x1 := Rect.unit (s := S512x1) ![0, 0] S512x1.size inb_S512x1_S512x1_0_0
abbrev rR : Rect S1x4096 := Rect.unit (s := S1x4096) ![0, 0] S1x4096.size inb_S1x4096_S1x4096_0_0
abbrev rO : Rect S512x4096 := Rect.unit (s := S512x4096) ![0, 0] S512x4096.size inb_S512x4096_S512x4096_0_0

/-! ## What the body leaves in each output buffer -/

/-- The masked squared distances of the block: the one store into window 4's buffer. -/
def outD (x0 : Vec F S512x3 .f32) (x1 : Vec F S4096x3 .f32) (x2 : Vec F S512x1 .f32) (x3 : Vec F S1x4096 .f32) : Vec F S512x4096 .f32 :=
  View.canon [⟨rO, k0_pay3 (View.ld x0 rI) (View.ld x1 rJ) (View.ld x2 rC) (View.ld x3 rR)⟩]

/-- The block's mask as words: the one store into window 5's buffer. -/
def outM (x0 : Vec F S512x3 .f32) (x1 : Vec F S4096x3 .f32) (x2 : Vec F S512x1 .f32) (x3 : Vec F S1x4096 .f32) : Vec F S512x4096 .i32 :=
  View.canon [⟨rO, k0_pay4 (View.ld x0 rI) (View.ld x1 rJ) (View.ld x2 rC) (View.ld x3 rR)⟩]

/-- A whole-buffer store covers the buffer. -/
theorem coverD (p0 : Vec F S512x4096 .f32) (y : S512x4096.Idx) :
    ∃ pc ∈ ([⟨rO, p0⟩] : List (View.Piece (Elt F) S512x4096 .f32)), y ∈ pc.1.set :=
  View.cover_of_tiled [⟨rO, p0⟩] S512x4096.size (by rfl) y
theorem coverM (p0 : Vec F S512x4096 .i32) (y : S512x4096.Idx) :
    ∃ pc ∈ ([⟨rO, p0⟩] : List (View.Piece (Elt F) S512x4096 .i32)), y ∈ pc.1.set :=
  View.cover_of_tiled [⟨rO, p0⟩] S512x4096.size (by rfl) y

/-! ## The body's triple -/

set_option maxHeartbeats 1000000 in
/-- On whole staging buffers, the four inputs at known contents and the two outputs at anything, the body runs to the
    inputs as they were and the outputs at `outD` / `outM` of the inputs. -/
theorem sound_kernel (c : Dev nD) (E : Set ℕ) (i : grid0.Coords)
    (arg2 : Memref sig .tc .vmem S512x3 .f32) (harg2 : arg2.IsWhole) (arg3 : Memref sig .tc .vmem S4096x3 .f32) (harg3 : arg3.IsWhole)
    (arg4 : Memref sig .tc .vmem S512x1 .f32) (harg4 : arg4.IsWhole) (arg5 : Memref sig .tc .vmem S1x4096 .f32) (harg5 : arg5.IsWhole)
    (arg6 : Memref sig .tc .vmem S512x4096 .f32) (harg6 : arg6.IsWhole) (arg7 : Memref sig .tc .vmem S512x4096 .i32) (harg7 : arg7.IsWhole)
    (x0 : Vec F S512x3 .f32) (x1 : Vec F S4096x3 .f32) (x2 : Vec F S512x1 .f32) (x3 : Vec F S1x4096 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outD x0 x1 x2 x3) ∗ owns (c : Thread nD τ) arg7 fullShare (outM x0 x1 x2 x3)) -∗ K ⟨⟩))
      ⊢ wp frame (wpE (defs₀ (F := F)) Variants.none c none) E (cc0__radius_kernel i arg2 harg2 arg3 harg3 arg4 harg4 arg5 harg5 arg6 harg6 arg7 harg7) K := by
  simp only [cc0__radius_kernel_eq_skeleton]; unfold cc0__radius_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverD _)
  iexists _; isplitr
  swap; · iexact H5
  ipureintro
  exact View.read_writes_eq_canon _ _ _ (coverM _)

/-! ## The pipeline's proof data -/

/-- The proof data on core `c`: the arrays as the region finds them; after the body at point `t` each input buffer
    at its block and each output buffer at the store's payload of the four input blocks; the invariant the scoped
    buffers no window stages (there are none); nothing owed.  The positions array is read through two windows, each
    holding one half of its share; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outD (iblk m c 0 t) (iblk m c 1 t) (iblk m c 2 t) (iblk m c 3 t)
    | ⟨5, _⟩ => outM (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outD (iblk m c 0 t) (iblk m c 1 t) (iblk m c 2 t) (iblk m c 3 t) := by dsimp only [dats]
theorem after0_5 (c : Dev nD) (t : Fin cfg0.N) :
    (dats m 0 c).after 5 t = outM (iblk m c 0 t) (iblk m c 1 t) (iblk m c 2 t) (iblk m c 3 t) := by dsimp only [dats]

/-- An input window's current buffer holds its block whenever the body runs, fetched at that point or not: where it
    is not fetched the block index has not moved since it was, and the body left the buffer as it found it. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Run.lean ====
/-
  The launch of the radius-graph program: five host operations (the squared norms), the tiled kernel region, four host
  operations (the mask words compared against zero).

  @main is run as three segments.  Between segments a core holds all of its unscoped buffers whole, at a valuation:
  at launch the memory; after the first stretch the squared norms computed; after the region the two result arrays at
  what the pipeline's write-backs made of them; after the last stretch the Boolean mask.  At the region's entry the
  positions array, which two windows read, is split into its two half shares, one per window; at the exit the halves
  (both still at the entry contents: an input array is never written) are joined again.
-/
import proofs.«115924_j59072980189797_2_alg».proof.Proof.Body
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five distinct arrays behind the six windows -/

/-- The buffers behind the windows' arrays, each whole, listed: the positions (once), the column and the row of squared
    norms, the two results. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4_0) ↦{fullShare} W main_v4_0)
          ∗ (((c : Thread nD τ).loc main_v4_1) ↦{fullShare} W main_v4_1)) := by
  unfold Pipeline.arrBufs
  exact bigSep_eq_bigSepL_of_eq [main_arg0, main_v2, main_v3, main_v4_0, main_v4_1] (by decide) (by decide) _

/-- The pipeline's arrays at contents `Fa`, window by window: the positions array twice, at its two half shares. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v2) ↦{fullShare} Fa 2) ∗ (((c : Thread nD τ).loc main_v3) ↦{fullShare} Fa 3)
          ∗ (((c : Thread nD τ).loc main_v4_0) ↦{fullShare} Fa 4) ∗ (((c : Thread nD τ).loc main_v4_1) ↦{fullShare} Fa 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-! ## The valuations between the segments -/

/-- Core `c`'s buffers after the first stretch of host operations (when the region is entered); -/
abbrev Ve (c : Dev nD) : Valuation τ sig (Elt F) := StableHlo.after hostOps0 (V₀ m c)

open Classical in
/-- after the region: the two result arrays at what the write-backs made of them, every other buffer as the region
    found it; -/
def Vx (c : Dev nD) : Valuation τ sig (Elt F) :=
  Function.update (Function.update (Ve m c) (Proc.devRef .tc main_v4_0) ((dats m 0 c).arrAt 4 cfg0.N))
    (Proc.devRef .tc main_v4_1) ((dats m 0 c).arrAt 5 cfg0.N)

/-- and at the end, the last four host operations run. -/
abbrev Vn (c : Dev nD) : Valuation τ sig (Elt F) := StableHlo.after hostOps1 (Vx m c)

theorem Vx_mask (c : Dev nD) : Vx m c (Proc.devRef .tc main_v4_1) = (dats m 0 c).arrAt 5 cfg0.N := by
  unfold Vx; exact Function.update_self ..

theorem Vx_dist (c : Dev nD) : Vx m c (Proc.devRef .tc main_v4_0) = (dats m 0 c).arrAt 4 cfg0.N := by
  unfold Vx
  rw [Function.update_of_ne (StableHlo.devRef_ne_of_ne (by decide))]
  exact Function.update_self ..

theorem Vx_other (c : Dev nD) (b : Ref sig .tc) (h0 : b ≠ main_v4_0) (h1 : b ≠ main_v4_1) :
    Vx m c (Proc.devRef .tc b) = V m c b := by
  unfold Vx
  rw [Function.update_of_ne (StableHlo.devRef_ne_of_ne h1), Function.update_of_ne (StableHlo.devRef_ne_of_ne h0)]

/-- The buffers no window stages hold after the region what they held before it. -/
theorem unscopedRest_Vx (c : Dev nD) :
    (Pipeline.unscopedRest (Ix := Unit) (Name := ℕ) (U := UR sig nD τ) (Lvl := ℕ) spec0 c (fun b => Vx m c (Proc.devRef .tc b)) : sProp 𝕄)
      = Pipeline.unscopedRest spec0 c (V m c) := by
  unfold Pipeline.unscopedRest
  refine bigSep_congr fun b hb => ?_
  have hn : ∀ w, Pipeline.arrRef spec0 w ≠ b := fun w h =>
    (Finset.mem_sdiff.mp hb).2 (Finset.mem_image.mpr ⟨w, Finset.mem_univ _, h⟩)
  dsimp only
  rw [Vx_other m c b (fun h => hn 4 h.symm) (fun h => hn 5 h.symm)]

/-! ## The segments -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- The first stretch: the squared norms, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The last stretch: the mask words compared against zero, from what the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m) R

/-- All the unscoped buffers at a valuation are the five arrays and the rest. -/
theorem held_split (c : Dev nD) (W : Valuation τ sig (Elt F)) :
    (StableHlo.held (c : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held c W]
  exact Pipeline.unscopedBufs_split₀ cfgs 0 winFacts₀0.arr_unscoped c _

set_option backward.isDefEq.respectTransparency.types false in
/-- The region: entered from what the first stretch left, the positions array halved between its two windows, the other
    arrays whole, the remaining buffers bypassing; left with the halves joined and the results at their final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Ve m c) ∗ R c)
  post c := iprop(StableHlo.held (c : Thread nD τ) (Pipeline.ucRefs τ sig) (Vx m c) ∗ R c)
  X _ := iprop(emp)
  Y _ := iprop(emp)
  Z c := Pipeline.unscopedRest spec0 c (V m c)
  hentry c := by
    rw [held_split, arrBufs_chain, arrays_chain]
    iintro ⟨⟨⟨⟨Ha0, Hv2, Hv3, Hv40, Hv41⟩, Hrest⟩, HO⟩, -, -⟩
    have hs := (pointsTo_share (ℓ := (c : Thread nD τ).loc main_arg0) (I := Finset.univ) (f := V m c main_arg0) (Ix := Unit) (Name := ℕ) (U := UR sig nD τ) (Lvl := ℕ) (PosShare.mem_left_op_right fullShare)).1
    ihave H := hs $$ Ha0
    icases H with ⟨HL, HR⟩
    imodintro
    isplitl [HL HR Hv2 Hv3 Hv40 Hv41]
    · isplitl [HL]; · iexact HL
      isplitl [HR]; · iexact HR
      isplitl [Hv2]; · iexact Hv2
      isplitl [Hv3]; · iexact Hv3
      isplitl [Hv40]; · iexact Hv40
      iexact Hv41
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest spec0 c from rfl]
    iintro ⟨-, -, Hr⟩; iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [held_split, arrBufs_chain, arrays_chain, unscopedRest_Vx, Vx_mask, Vx_dist,
      Vx_other m c main_arg0 (by decide) (by decide), Vx_other m c main_v2 (by decide) (by decide), Vx_other m c main_v3 (by decide) (by decide)]
    rw [(dats m 0 c).arrAt_in 0 rfl, (dats m 0 c).arrAt_in 1 rfl, (dats m 0 c).arrAt_in 2 rfl, (dats m 0 c).arrAt_in 3 rfl]
    iintro ⟨⟨HL, HR, H2, H3, H4, H5⟩, HO, -, HZ⟩
    have hj := (pointsTo_share (ℓ := (c : Thread nD τ).loc main_arg0) (I := Finset.univ) (f := V m c main_arg0) (Ix := Unit) (Name := ℕ) (U := UR sig nD τ) (Lvl := ℕ) (PosShare.mem_left_op_right fullShare)).2
    ihave H0 := hj $$ [HL HR]
    · isplitl [HL]; · iexact HL
      iexact HR
    imodintro
    isplitr [HO]
    · isplitr [HZ]
      · isplitl [H0]; · iexact H0
        isplitl [H2]; · iexact H2
        isplitl [H3]; · iexact H3
        isplitl [H4]; · iexact H4
        iexact H5
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

set_option backward.isDefEq.respectTransparency.types false in
/-- At the compiled mesh, at any float instance, from any memory with zero counters: every weakly fair execution of @main
    on the TensorCores terminates, and in every final state every unscoped buffer holds what the three segments'
    valuations compute (`Vn`). -/
theorem run_main : θ_run defs (onTc (τ := τ) (main (F := F))) ⟨m, fun _ => 0, ρ⟩
    (fun r => ∀ c : Dev nD, ∀ b ∈ Pipeline.ucRefs τ sig, r.2.mem ((c : Thread nD τ).1, b) = Vn m c b) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vn m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vn m c b)
    (hfin := fun c s' => by
      unfold StableHlo.held
      iintro ⟨Hh, HSI⟩
      ihave Hr := (pointsTo_read_all (Pipeline.ucRefs τ sig) (fun b => ((c : Thread nD τ).1, b)) (Vn m c) s') $$ [Hh HSI]
      · isplitl [Hh] <;> iassumption
      icases Hr with ⟨%h, HSI⟩
      imodintro
      isplitr; · ipureintro; exact h
      iexact HSI)
    (hQ := fun _ h => h)

/-! ## The arguments at the end -/

/-- An unscoped TensorCore buffer is among the buffers the segments hold. -/
theorem mem_ucRefs (b : Ref sig .tc) (h : (Proc.devRef (τ := τ) .tc b).isScoped = false) :
    Proc.devRef .tc b ∈ Pipeline.ucRefs τ sig := by
  unfold Pipeline.ucRefs StableHlo.tcRefs
  exact Finset.mem_filter.mpr ⟨Finset.mem_map.mpr ⟨b, Finset.mem_univ _, rfl⟩, by rw [h]; exact Bool.false_ne_true⟩

/-- No segment writes the positions: they end as launched. -/
theorem Vn_arg0 (c : Dev nD) : Vn m c (Proc.devRef .tc main_arg0) = m ((c : Thread nD τ).loc main_arg0) := by
  have h1 : StableHlo.after hostOps1 (Vx m c) (Proc.devRef .tc main_arg0) = Vx m c (Proc.devRef .tc main_arg0) := by
    after_results <;> rfl
  have h0 : StableHlo.after hostOps0 (V₀ m c) (Proc.devRef .tc main_arg0) = m ((c : Thread nD τ).loc main_arg0) := by
    after_results <;> rfl
  exact h1.trans ((Vx_other m c main_arg0 (by decide) (by decide)).trans h0)

/-- THE FRAME: the program runs to the end from any memory, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_ucRefs main_arg0 rfl)).trans (Vn_arg0 m c)) (run_main m ρ)

end Cert.KernelIdeal.Hand

end
-- ==== Proof.Spec.lean ====
/-
  The mathematics of the radius graph, over the extended reals.

  For points p_0 … p_8191 in three dimensions with squared norms s_r, the clamped squared distance of the pair (r, c) is
      d(r, c) = max (s_r + s_c - 2 · Σ_k p_r[k] · p_c[k], 0),
  the pair is an edge when d(r, c) ≤ 1, and the masked distance is d(r, c) on edges and 0 elsewhere.  Both programs
  compute exactly this expression, with the operations in this order; they differ only in how the inner product is
  spelt (a matrix unit's product of a row block with a transposed column block, against a host product with the
  transposed array) and in where the work is tiled.  The squared norms enter as a given array `s`: both programs obtain
  them from one and the same host reduction, which is never opened.
-/
import Idealize.ShloMosaic.PureOps.Ideal
import Idealize.ShloMosaic.Lib.ValueIdx

noncomputable section

namespace Cert.Radius

open Idealize.ShloMosaic Idealize.ShloMosaic.ValueIdx

/-- The scalar 2, 0 and 1 as the programs spell them. -/
abbrev two : Ideal .f32 := FloatOps.ofBits .f32 0x40000000#32
abbrev zero : Ideal .f32 := FloatOps.ofBits .f32 0x00000000#32
abbrev one : Ideal .f32 := FloatOps.ofBits .f32 0x3F800000#32

/-- `max (a + b - 2 d, 0)`: the clamped squared distance from two squared norms and an inner product. -/
def clamp (a b d : Ideal .f32) : Ideal .f32 :=
  FloatOps.maximumf (FloatOps.subf (FloatOps.addf a b) (FloatOps.mulf two d)) zero

/-- `x ≤ 1`, as a bit. -/
def within (x : Ideal .f32) : BitVec 1 := FloatOps.cmpf .ole x one

/-- `x` where `x ≤ 1`, else `0`. -/
def masked (x : Ideal .f32) : Ideal .f32 := Scalar.select (within x) x zero

/-- The inner product of rows `r` and `c` of the positions. -/
def inner (P : (⟨2, ![8192, 3]⟩ : Shape).Idx → Ideal .f32) (r c : Fin 8192) : Ideal .f32 :=
  ∑ k : Fin 3, P (ix2 r k) * P (ix2 c k)

/-- The clamped squared distance of the pair `(r, c)`. -/
def dist2 (s : (⟨1, ![8192]⟩ : Shape).Idx → Ideal .f32) (P : (⟨2, ![8192, 3]⟩ : Shape).Idx → Ideal .f32) (r c : Fin 8192) : Ideal .f32 :=
  clamp (s (ix1 r)) (s (ix1 c)) (inner P r c)

/-- The masked squared distances, the edge mask, and the edge mask as 32-bit words: each a function of the whole arrays. -/
def GD (s : (⟨1, ![8192]⟩ : Shape).Idx → Ideal .f32) (P : (⟨2, ![8192, 3]⟩ : Shape).Idx → Ideal .f32) :
    (⟨2, ![8192, 8192]⟩ : Shape).Idx → Ideal .f32 := fun i => masked (dist2 s P (i 0) (i 1))
def GM (s : (⟨1, ![8192]⟩ : Shape).Idx → Ideal .f32) (P : (⟨2, ![8192, 3]⟩ : Shape).Idx → Ideal .f32) :
    (⟨2, ![8192, 8192]⟩ : Shape).Idx → BitVec 1 := fun i => within (dist2 s P (i 0) (i 1))
def GW (s : (⟨1, ![8192]⟩ : Shape).Idx → Ideal .f32) (P : (⟨2, ![8192, 3]⟩ : Shape).Idx → Ideal .f32) :
    (⟨2, ![8192, 8192]⟩ : Shape).Idx → BitVec 32 := fun i => (within (dist2 s P (i 0) (i 1))).setWidth 32

/-- A bit widened to a word is nonzero exactly when the bit is set. -/
theorem ne_zero_setWidth (b : BitVec 1) : IntOp.cmpi .ne (b.setWidth 32) 0#32 = b := by
  revert b; decide

end Cert.Radius

end
-- ==== Proof.PayAt.lean ====
/-
  The kernel body's two stores at one element of the 512 x 4096 block.

  At the block's element (p, q) the first store writes the masked clamped squared distance of the block's row p and
  column q, from the column-of-norms block at (p, 0), the row-of-norms block at (0, q) and the inner product of row p of
  the first positions block with row q of the second; the second store writes the edge bit of the same quantity, widened
  to a word.  The matrix unit's product into a zero accumulator, contracting the second axis of both blocks, is at
  exact arithmetic the sum over the three coordinates.
-/
import proofs.«115924_j59072980189797_2_alg».proof.Proof.Gen.KernelIdeal.Skeleton
import proofs.«115924_j59072980189797_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Radius
open Idealize.ShloMosaic Idealize.ShloMosaic.ValueIdx

/-! ## The matrix product at an element -/

theorem dk_lhs0 (i : S512x4096.Idx) (q : dot_S512x3_S4096x3_S512x4096_1_1_0_0_n_n.contr.Idx) : (dot_S512x3_S4096x3_S512x4096_1_1_0_0_n_n.lhsIdx i q 0).val = (i 0).val := by
  unfold DotDims.lhsIdx
  rw [dif_neg (show ¬(0 : Fin S512x3.rank) ∈ dot_S512x3_S4096x3_S512x4096_1_1_0_0_n_n.lhsBatch by decide), dif_pos (show (0 : Fin S512x3.rank) ∈ dot_S512x3_S4096x3_S512x4096_1_1_0_0_n_n.lhsNonContracting by decide)]
  rfl
theorem dk_lhs1 (i : S512x4096.Idx) (q : dot_S512x3_S4096x3_S512x4096_1_1_0_0_n_n.contr.Idx) : (dot_S512x3_S4096x3_S512x4096_1_1_0_0_n_n.lhsIdx i q 1).val = (q ⟨0, by decide⟩).val :=
  dot_S512x3_S4096x3_S512x4096_1_1_0_0_n_n.lhsIdx_val_of_single rfl i q
theorem dk_rhs0 (i : S512x4096.Idx) (q : dot_S512x3_S4096x3_S512x4096_1_1_0_0_n_n.contr.Idx) : (dot_S512x3_S4096x3_S512x4096_1_1_0_0_n_n.rhsIdx i q 0).val = (i 1).val := by
  unfold DotDims.rhsIdx
  rw [dif_neg (show ¬(0 : Fin S4096x3.rank) ∈ dot_S512x3_S4096x3_S512x4096_1_1_0_0_n_n.rhsBatch by decide), dif_pos (show (0 : Fin S4096x3.rank) ∈ dot_S512x3_S4096x3_S512x4096_1_1_0_0_n_n.rhsNonContracting by decide)]
  rfl
theorem dk_rhs1 (i : S512x4096.Idx) (q : dot_S512x3_S4096x3_S512x4096_1_1_0_0_n_n.contr.Idx) : (dot_S512x3_S4096x3_S512x4096_1_1_0_0_n_n.rhsIdx i q 1).val = (q ⟨0, by decide⟩).val :=
  dot_S512x3_S4096x3_S512x4096_1_1_0_0_n_n.rhsIdx_val_of_single rfl i q

/-- The product of a 512 x 3 block with a 4096 x 3 block along their second axes, into zero, at (p, q): the sum over the
    three coordinates of the products. -/
theorem dot_at (x0 : FVec Ideal S512x3 .f32) (x1 : FVec Ideal S4096x3 .f32) (p : Fin 512) (q : Fin 4096) :
    matmul (F := Ideal) dot_S512x3_S4096x3_S512x4096_1_1_0_0_n_n (some .fp32) x0 x1 (constant (F := Ideal) S512x4096 .f32 0x00000000#32) (ix2 p q)
      = ∑ k : Fin 3, x0 (ix2 p k) * x1 (ix2 q k) := by
  simp only [matmul]
  rw [Ideal.matmul_constant_zero_apply, ← Equiv.sum_comp (contrEquiv1 dot_S512x3_S4096x3_S512x4096_1_1_0_0_n_n 3 rfl rfl).symm]
  refine Finset.sum_congr rfl fun k _ => ?_
  have hk := contrEquiv1_symm_val dot_S512x3_S4096x3_S512x4096_1_1_0_0_n_n 3 rfl rfl k
  have el : dot_S512x3_S4096x3_S512x4096_1_1_0_0_n_n.lhsIdx (ix2 p q) ((contrEquiv1 dot_S512x3_S4096x3_S512x4096_1_1_0_0_n_n 3 rfl rfl).symm k) = ix2 p k := funext fun a => Fin.ext (by
    match a with
    | ⟨0, _⟩ => exact dk_lhs0 _ _
    | ⟨1, _⟩ => exact (dk_lhs1 _ _).trans hk)
  have er : dot_S512x3_S4096x3_S512x4096_1_1_0_0_n_n.rhsIdx (ix2 p q) ((contrEquiv1 dot_S512x3_S4096x3_S512x4096_1_1_0_0_n_n 3 rfl rfl).symm k) = ix2 q k := funext fun a => Fin.ext (by
    match a with
    | ⟨0, _⟩ => exact dk_rhs0 _ _
    | ⟨1, _⟩ => exact (dk_rhs1 _ _).trans hk)
  rw [el, er]

/-! ## The two broadcasts at an element -/

/-- The column of norms spread along the rows, at (p, q): the column's entry p. -/
theorem col_at (x2 : Vec Ideal S512x1 .f32) (p : Fin 512) (q : Fin 4096) :
    broadcastTo S512x4096 (shapeCast S512x1 x2 shapeCasts_S512x1_S512x1) broadcasts_S512x1_S512x4096 (ix2 p q)
      = x2 (ix2 p (0 : Fin 1)) := by
  rw [shapeCast_self]
  exact broadcastTo_apply x2 broadcasts_S512x1_S512x4096 (ix2 p q) (ix2 p (0 : Fin 1)) (fun a => by
    match a with
    | ⟨0, _⟩ => show p.val = if (512 : Nat) = 1 then 0 else p.val; rw [if_neg (by decide)]
    | ⟨1, _⟩ => show 0 = if (1 : Nat) = 1 then 0 else q.val; rw [if_pos rfl])

/-- The row of norms spread along the columns, at (p, q): the row's entry q. -/
theorem row_at (x3 : Vec Ideal S1x4096 .f32) (p : Fin 512) (q : Fin 4096) :
    broadcastTo S512x4096 (shapeCast S1x4096 x3 shapeCasts_S1x4096_S1x4096) broadcasts_S1x4096_S512x4096 (ix2 p q)
      = x3 (ix2 (0 : Fin 1) q) := by
  rw [shapeCast_self]
  exact broadcastTo_apply x3 broadcasts_S1x4096_S512x4096 (ix2 p q) (ix2 (0 : Fin 1) q) (fun a => by
    match a with
    | ⟨0, _⟩ => show 0 = if (1 : Nat) = 1 then 0 else p.val; rw [if_pos rfl]
    | ⟨1, _⟩ => show q.val = if (4096 : Nat) = 1 then 0 else q.val; rw [if_neg (by decide)])

/-! ## The payloads at an element -/

/-- The clamped squared distance the body computes, at (p, q). -/
theorem pay1_at (x0 : Vec Ideal S512x3 .f32) (x1 : Vec Ideal S4096x3 .f32) (x2 : Vec Ideal S512x1 .f32) (x3 : Vec Ideal S1x4096 .f32)
    (p : Fin 512) (q : Fin 4096) :
    k0_pay1 (F := Ideal) x0 x1 x2 x3 (ix2 p q)
      = clamp (x2 (ix2 p (0 : Fin 1))) (x3 (ix2 (0 : Fin 1) q)) (∑ k : Fin 3, x0 (ix2 p k) * x1 (ix2 q k)) := by
  unfold k0_pay1 clamp
  show FloatOps.maximumf (FloatOps.subf (FloatOps.addf (broadcastTo S512x4096 (shapeCast S512x1 x2 shapeCasts_S512x1_S512x1) broadcasts_S512x1_S512x4096 (ix2 p q))
      (broadcastTo S512x4096 (shapeCast S1x4096 x3 shapeCasts_S1x4096_S1x4096) broadcasts_S1x4096_S512x4096 (ix2 p q)))
      (FloatOps.mulf two (matmul (F := Ideal) dot_S512x3_S4096x3_S512x4096_1_1_0_0_n_n (some .fp32) x0 x1 (constant (F := Ideal) S512x4096 .f32 0x00000000#32) (ix2 p q)))) zero = _
  rw [col_at, row_at, dot_at]

/-- The first store's payload at (p, q): the masked clamped squared distance. -/
theorem payD_at (x0 : Vec Ideal S512x3 .f32) (x1 : Vec Ideal S4096x3 .f32) (x2 : Vec Ideal S512x1 .f32) (x3 : Vec Ideal S1x4096 .f32)
    (p : Fin 512) (q : Fin 4096) :
    k0_pay3 (F := Ideal) x0 x1 x2 x3 (ix2 p q)
      = masked (clamp (x2 (ix2 p (0 : Fin 1))) (x3 (ix2 (0 : Fin 1) q)) (∑ k : Fin 3, x0 (ix2 p k) * x1 (ix2 q k))) := by
  unfold k0_pay3 k0_pay2 masked within
  show Scalar.select (FloatOps.cmpf .ole (k0_pay1 (F := Ideal) x0 x1 x2 x3 (ix2 p q)) one) (k0_pay1 (F := Ideal) x0 x1 x2 x3 (ix2 p q)) zero = _
  rw [pay1_at]

/-- The second store's payload at (p, q): the edge bit, widened. -/
theorem payM_at (x0 : Vec Ideal S512x3 .f32) (x1 : Vec Ideal S4096x3 .f32) (x2 : Vec Ideal S512x1 .f32) (x3 : Vec Ideal S1x4096 .f32)
    (p : Fin 512) (q : Fin 4096) :
    k0_pay4 (F := Ideal) x0 x1 x2 x3 (ix2 p q)
      = (within (clamp (x2 (ix2 p (0 : Fin 1))) (x3 (ix2 (0 : Fin 1) q)) (∑ k : Fin 3, x0 (ix2 p k) * x1 (ix2 q k)))).setWidth 32 := by
  unfold k0_pay4 k0_pay2 within
  show (FloatOps.cmpf .ole (k0_pay1 (F := Ideal) x0 x1 x2 x3 (ix2 p q)) one).setWidth 32 = _
  rw [pay1_at]

/-! ## The payloads at an element, in terms of the arrays behind the blocks -/

/-- If the four blocks hold, where element (p, q) reads them, the positions `P` of rows `r` and `cc` and the norms `s` of
    those rows, the block's clamped squared distance at (p, q) is the pair's. -/
theorem clamp_of (s : (⟨1, ![8192]⟩ : Shape).Idx → Ideal .f32) (P : (⟨2, ![8192, 3]⟩ : Shape).Idx → Ideal .f32)
    (x0 : Vec Ideal S512x3 .f32) (x1 : Vec Ideal S4096x3 .f32) (x2 : Vec Ideal S512x1 .f32) (x3 : Vec Ideal S1x4096 .f32)
    (p : Fin 512) (q : Fin 4096) (r cc : Fin 8192)
    (e0 : ∀ k : Fin 3, x0 (ix2 p k) = P (ix2 r k)) (e1 : ∀ k : Fin 3, x1 (ix2 q k) = P (ix2 cc k))
    (e2 : x2 (ix2 p (0 : Fin 1)) = s (ix1 r)) (e3 : x3 (ix2 (0 : Fin 1) q) = s (ix1 cc)) :
    clamp (x2 (ix2 p (0 : Fin 1))) (x3 (ix2 (0 : Fin 1) q)) (∑ k : Fin 3, x0 (ix2 p k) * x1 (ix2 q k)) = dist2 s P r cc := by
  unfold dist2 Radius.inner
  rw [e2, e3]
  exact congrArg _ (Finset.sum_congr rfl fun k _ => by rw [e0 k, e1 k])

theorem payD_of (s : (⟨1, ![8192]⟩ : Shape).Idx → Ideal .f32) (P : (⟨2, ![8192, 3]⟩ : Shape).Idx → Ideal .f32)
    (x0 : Vec Ideal S512x3 .f32) (x1 : Vec Ideal S4096x3 .f32) (x2 : Vec Ideal S512x1 .f32) (x3 : Vec Ideal S1x4096 .f32)
    (p : Fin 512) (q : Fin 4096) (r cc : Fin 8192)
    (e0 : ∀ k : Fin 3, x0 (ix2 p k) = P (ix2 r k)) (e1 : ∀ k : Fin 3, x1 (ix2 q k) = P (ix2 cc k))
    (e2 : x2 (ix2 p (0 : Fin 1)) = s (ix1 r)) (e3 : x3 (ix2 (0 : Fin 1) q) = s (ix1 cc)) :
    k0_pay3 (F := Ideal) x0 x1 x2 x3 (ix2 p q) = masked (dist2 s P r cc) :=
  (payD_at x0 x1 x2 x3 p q).trans (congrArg masked (clamp_of s P x0 x1 x2 x3 p q r cc e0 e1 e2 e3))

theorem payM_of (s : (⟨1, ![8192]⟩ : Shape).Idx → Ideal .f32) (P : (⟨2, ![8192, 3]⟩ : Shape).Idx → Ideal .f32)
    (x0 : Vec Ideal S512x3 .f32) (x1 : Vec Ideal S4096x3 .f32) (x2 : Vec Ideal S512x1 .f32) (x3 : Vec Ideal S1x4096 .f32)
    (p : Fin 512) (q : Fin 4096) (r cc : Fin 8192)
    (e0 : ∀ k : Fin 3, x0 (ix2 p k) = P (ix2 r k)) (e1 : ∀ k : Fin 3, x1 (ix2 q k) = P (ix2 cc k))
    (e2 : x2 (ix2 p (0 : Fin 1)) = s (ix1 r)) (e3 : x3 (ix2 (0 : Fin 1) q) = s (ix1 cc)) :
    k0_pay4 (F := Ideal) x0 x1 x2 x3 (ix2 p q) = (within (dist2 s P r cc)).setWidth 32 :=
  (payM_at x0 x1 x2 x3 p q).trans (congrArg (fun x => (within x).setWidth 32) (clamp_of s P x0 x1 x2 x3 p q r cc e0 e1 e2 e3))

end Cert.KernelIdeal.Hand

end
-- ==== Proof.KValue.lean ====
/-
  The kernel's two result arrays as functions of the positions.

  Output block (i, j) of the grid covers rows 512 i … 512 i + 511 and columns 4096 j … 4096 j + 4095 of the 8192 x 8192
  results.  At the point (i, j) the four input blocks are: rows 512 i … of the positions, rows 4096 j … of the positions,
  rows 512 i … of the column of squared norms, columns 4096 j … of the row of squared norms.  So element (p, q) of what
  the point writes back is the spec's value at the array index (512 i + p, 4096 j + q); the thirty-two blocks tile the
  arrays, hence each array ends as the spec's whole-array function.
  The column and the row of squared norms are reshapes of one vector, the host's row sums of the squared positions.
-/
import proofs.«115924_j59072980189797_2_alg».proof.Proof.Run
import proofs.«115924_j59072980189797_2_alg».proof.Proof.PayAt
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.Radius
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-! ## The arrays the region finds -/

/-- The squared norms: the host's sum, along each row, of the squared positions. -/
abbrev sqn (A : FVec Ideal S8192x3 .f32) : FVec Ideal S8192 .f32 :=
  Host.reduceAdd (mulf A A) (constant S_ .f32 0x00000000#32) reducesTo_S8192x3_S8192_d1 h_S_

/-- The positions, as launched. -/
abbrev pos (c : Dev nD) : S8192x3.Idx → Ideal .f32 := m ((c : Thread nD τ).loc main_arg0)

theorem V_pos (c : Dev nD) : (V m c main_arg0 : S8192x3.Idx → Ideal .f32) = pos m c := by
  show StableHlo.after hostOps0 (V₀ m c) (Proc.devRef .tc main_arg0) = _
  after_results <;> rfl
theorem V_col (c : Dev nD) : (V m c main_v2 : S8192x1.Idx → Ideal .f32) = shapeCast S8192x1 (sqn (pos m c)) shapeCasts_S8192_S8192x1 := by
  show StableHlo.after hostOps0 (V₀ m c) (Proc.devRef .tc main_v2) = _
  after_results <;> rfl
theorem V_row (c : Dev nD) : (V m c main_v3 : S1x8192.Idx → Ideal .f32) = shapeCast S1x8192 (sqn (pos m c)) shapeCasts_S8192_S1x8192 := by
  show StableHlo.after hostOps0 (V₀ m c) (Proc.devRef .tc main_v3) = _
  after_results <;> rfl

/-- The column of norms at (r, 0) is the r-th norm; -/
theorem col_entry (s : FVec Ideal S8192 .f32) (i : S8192x1.Idx) :
    shapeCast S8192x1 s shapeCasts_S8192_S8192x1 i = s (ix1 (i 0)) := by
  have h1 : (i 1).val < 1 := (i 1).isLt
  refine shapeCast_apply s _ i (ix1 (i 0)) ?_
  rw [Shape.rowMajor_val_one, Shape.rowMajor_val_two]
  show (i 0).val = (i 0).val * 1 + (i 1).val
  omega
/-- the row of norms at (0, r) likewise. -/
theorem row_entry (s : FVec Ideal S8192 .f32) (i : S1x8192.Idx) :
    shapeCast S1x8192 s shapeCasts_S8192_S1x8192 i = s (ix1 (i 1)) := by
  have h0 : (i 0).val < 1 := (i 0).isLt
  refine shapeCast_apply s _ i (ix1 (i 1)) ?_
  rw [Shape.rowMajor_val_one, Shape.rowMajor_val_two]
  show (i 1).val = (i 0).val * 8192 + (i 1).val
  omega

/-! ## Where each window's block sits, relative to the output block -/

theorem hz : (![0, 0] : Fin 2 → Nat) = fun _ => 0 := funext fun a => by fin_cases a <;> rfl

/-- The index maps, decided over the thirty-two points: the row inputs move with the output's row block, the column
    inputs with its column block, the two outputs together. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_5.index t (0 : Fin 2) = win0_4.index t (0 : Fin 2) ∧ win0_5.index t (1 : Fin 2) = win0_4.index t (1 : Fin 2)
    ∧ win0_4.index t (0 : Fin 2) ≤ 15 ∧ win0_4.index t (1 : Fin 2) ≤ 1 :=
  (by decide +kernel : ∀ t : Fin grid0.N, _)

/-- Every block of the 16 x 2 tiling is some point's. -/
theorem idx_onto : ∀ (q0 : Fin 16) (q1 : Fin 2), ∃ t : Fin cfg0.N, win0_4.index t = ![q0.val, q1.val] :=
  (by decide +kernel : ∀ (q0 : Fin 16) (q1 : Fin 2), ∃ t : Fin grid0.N, win0_4.index t = ![q0.val, q1.val])

/-- The first positions block at `y` is the positions at the output block's row offset plus `y`'s row; -/
theorem blk0_at (c : Dev nD) (t : Fin cfg0.N) (y : S512x3.Idx) (i : S8192x3.Idx)
    (h0 : (i 0).val = win0_4.index t (0 : Fin 2) * 512 + (y 0).val) (h1 : (i 1).val = (y 1).val) :
    iblk m c 0 t y = pos m c i := by
  obtain ⟨e0, e1, -⟩ := idx_facts t
  rw [← V_pos]
  show V m c main_arg0 (((cfg0.win 0).blk t).view.emb y) = V m c main_arg0 i
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 3 + 1 * (y 1).val = (i 1).val; omega

/-- the second positions block at `y` is the positions at the output block's COLUMN offset plus `y`'s row; -/
theorem blk1_at (c : Dev nD) (t : Fin cfg0.N) (y : S4096x3.Idx) (i : S8192x3.Idx)
    (h0 : (i 0).val = win0_4.index t (1 : Fin 2) * 4096 + (y 0).val) (h1 : (i 1).val = (y 1).val) :
    iblk m c 1 t y = pos m c i := by
  obtain ⟨-, -, e0, e1, -⟩ := idx_facts t
  rw [← V_pos]
  show V m c main_arg0 (((cfg0.win 1).blk t).view.emb y) = V m c main_arg0 i
  refine congrArg _ (funext fun a => Fin.ext ?_)
  match a with
  | ⟨0, _⟩ => show win0_1.index t (0 : Fin 2) * 4096 + 1 * (y 0).val = (i 0).val; omega
  | ⟨1, _⟩ => show win0_1.index t (1 : Fin 2) * 3 + 1 * (y 1).val = (i 1).val; omega

/-- the column-of-norms block at (p, 0) is the norm of the row at the output block's row offset plus p; -/
theorem blk2_at (c : Dev nD) (t : Fin cfg0.N) (y : S512x1.Idx) (r : Fin 8192)
    (h0 : r.val = win0_4.index t (0 : Fin 2) * 512 + (y 0).val) :
    iblk m c 2 t y = sqn (pos m c) (ix1 r) := by
  obtain ⟨-, -, -, -, e0, e1, -⟩ := idx_facts t
  have hy : (y 1).val < 1 := (y 1).isLt
  show V m c main_v2 (((cfg0.win 2).blk t).view.emb y) = _
  rw [V_col, col_entry]
  refine congrArg _ (funext fun a => Fin.ext ?_)
  match a with
  | ⟨0, _⟩ => show win0_2.index t (0 : Fin 2) * 512 + 1 * (y 0).val = r.val; omega

/-- the row-of-norms block at (0, q) is the norm of the row at the output block's column offset plus q. -/
theorem blk3_at (c : Dev nD) (t : Fin cfg0.N) (y : S1x4096.Idx) (r : Fin 8192)
    (h1 : r.val = win0_4.index t (1 : Fin 2) * 4096 + (y 1).val) :
    iblk m c 3 t y = sqn (pos m c) (ix1 r) := by
  obtain ⟨-, -, -, -, -, -, e0, e1, -⟩ := idx_facts t
  show V m c main_v3 (((cfg0.win 3).blk t).view.emb y) = _
  rw [V_row, row_entry]
  refine congrArg _ (funext fun a => Fin.ext ?_)
  match a with
  | ⟨0, _⟩ => show win0_3.index t (1 : Fin 2) * 4096 + 1 * (y 1).val = r.val; omega

end Cert.KernelIdeal.Hand

end
-- ==== Proof.KFinal.lean ====
/-
  The kernel's two result arrays as functions of the positions: what each point writes back, the tiling, and the arrays
  after the last write-back.
-/
import proofs.«115924_j59072980189797_2_alg».proof.Proof.KValue

set_option maxRecDepth 16384

noncomputable section

namespace Cert.KernelIdeal.Hand

open Cert.KernelIdeal Cert.KernelIdeal.Gen Cert.Radius
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-! ## What a point writes back is its block of the whole-array function -/

/-- Two descriptions of one output block agree when they agree element by element: what a point leaves, read at (p, q),
    against a whole-array function read at the array index under (p, q). -/
theorem blockD_ext (t : Fin cfg0.N) (X : Vec Ideal S512x4096 .f32) (G : S8192x8192.Idx → Ideal .f32)
    (h : ∀ (p : Fin 512) (q : Fin 4096) (i : S8192x8192.Idx), (i 0).val = win0_4.index t (0 : Fin 2) * 512 + p.val →
      (i 1).val = win0_4.index t (1 : Fin 2) * 4096 + q.val → X (ix2 p q) = G i) :
    (cfg0.win 4).cut (grid0.coords t) X = ((cfg0.win 4).blk t).view.read (Elt Ideal) G := by
  funext j
  show X j = G (((cfg0.win 4).blk t).view.emb j)
  refine (congrArg X (eq_ix2 j)).trans (h (j 0) (j 1) _ ?_ ?_)
  · show win0_4.index t (0 : Fin 2) * 512 + 1 * (j 0).val = win0_4.index t (0 : Fin 2) * 512 + (j 0).val; omega
  · show win0_4.index t (1 : Fin 2) * 4096 + 1 * (j 1).val = win0_4.index t (1 : Fin 2) * 4096 + (j 1).val; omega

theorem blockW_ext (t : Fin cfg0.N) (X : Vec Ideal S512x4096 .i32) (G : S8192x8192.Idx → BitVec 32)
    (h : ∀ (p : Fin 512) (q : Fin 4096) (i : S8192x8192.Idx), (i 0).val = win0_5.index t (0 : Fin 2) * 512 + p.val →
      (i 1).val = win0_5.index t (1 : Fin 2) * 4096 + q.val → X (ix2 p q) = G i) :
    (cfg0.win 5).cut (grid0.coords t) X = ((cfg0.win 5).blk t).view.read (Elt Ideal) G := by
  funext j
  show X j = G (((cfg0.win 5).blk t).view.emb j)
  refine (congrArg X (eq_ix2 j)).trans (h (j 0) (j 1) _ ?_ ?_)
  · show win0_5.index t (0 : Fin 2) * 512 + 1 * (j 0).val = win0_5.index t (0 : Fin 2) * 512 + (j 0).val; omega
  · show win0_5.index t (1 : Fin 2) * 4096 + 1 * (j 1).val = win0_5.index t (1 : Fin 2) * 4096 + (j 1).val; omega

/-- WHAT POINT `t` WRITES BACK to the masked distances is block `t` of the whole-array masked distances; -/
theorem flushedD_eq (c : Dev nD) (t : Fin cfg0.N) :
    (dats m 0 c).flushed 4 t = ((cfg0.win 4).blk t).view.read (Elt Ideal) (GD (sqn (pos m c)) (pos m c)) := by
  show (cfg0.win 4).cut (grid0.coords t) ((dats m 0 c).after 4 t) = _
  rw [after0_4]
  unfold outD
  rw [View.canon_unit_zero hz]
  simp only [View.ld_unit_zero (S := S512x3) hz, View.ld_unit_zero (S := S4096x3) hz, View.ld_unit_zero (S := S512x1) hz, View.ld_unit_zero (S := S1x4096) hz]
  refine blockD_ext t _ _ fun p q i h0 h1 => ?_
  unfold GD
  exact payD_of (sqn (pos m c)) (pos m c) (iblk m c 0 t) (iblk m c 1 t) (iblk m c 2 t) (iblk m c 3 t) p q (i 0) (i 1)
    (fun k => blk0_at m c t (ix2 p k) (ix2 (i 0) k) h0 rfl) (fun k => blk1_at m c t (ix2 q k) (ix2 (i 1) k) h1 rfl)
    (blk2_at m c t (ix2 p (0 : Fin 1)) (i 0) h0) (blk3_at m c t (ix2 (0 : Fin 1) q) (i 1) h1)

/-- and to the mask words, block `t` of the whole-array mask words. -/
theorem flushedW_eq (c : Dev nD) (t : Fin cfg0.N) :
    (dats m 0 c).flushed 5 t = ((cfg0.win 5).blk t).view.read (Elt Ideal) (GW (sqn (pos m c)) (pos m c)) := by
  show (cfg0.win 5).cut (grid0.coords t) ((dats m 0 c).after 5 t) = _
  rw [after0_5]
  unfold outM
  rw [View.canon_unit_zero hz]
  simp only [View.ld_unit_zero (S := S512x3) hz, View.ld_unit_zero (S := S4096x3) hz, View.ld_unit_zero (S := S512x1) hz, View.ld_unit_zero (S := S1x4096) hz]
  obtain ⟨-, -, -, -, -, -, -, -, e0, e1, -⟩ := idx_facts t
  refine blockW_ext t _ _ fun p q i h0 h1 => ?_
  have h0' : (i 0).val = win0_4.index t (0 : Fin 2) * 512 + p.val := by omega
  have h1' : (i 1).val = win0_4.index t (1 : Fin 2) * 4096 + q.val := by omega
  unfold GW
  exact payM_of (sqn (pos m c)) (pos m c) (iblk m c 0 t) (iblk m c 1 t) (iblk m c 2 t) (iblk m c 3 t) p q (i 0) (i 1)
    (fun k => blk0_at m c t (ix2 p k) (ix2 (i 0) k) h0' rfl) (fun k => blk1_at m c t (ix2 q k) (ix2 (i 1) k) h1' rfl)
    (blk2_at m c t (ix2 p (0 : Fin 1)) (i 0) h0') (blk3_at m c t (ix2 (0 : Fin 1) q) (i 1) h1')
/-! ## The thirty-two blocks tile each result -/

theorem mem_blk4 (t : Fin cfg0.N) (i : S8192x8192.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v4_0).slice (win0_4.rect t)).set ↔ _
  rw [View.set_slice_whole, Rect.mem_set_unit]
  exact Iff.rfl
theorem mem_blk5 (t : Fin cfg0.N) (i : S8192x8192.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v4_1).slice (win0_5.rect t)).set ↔ _
  rw [View.set_slice_whole, Rect.mem_set_unit]
  exact Iff.rfl

/-- Every index of the results lies in the block of the point at (row / 512, column / 4096). -/
theorem cover4 (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 512, by omega⟩ ⟨(i 1).val / 4096, by omega⟩
  have q0 : win0_4.index t (0 : Fin 2) = (i 0).val / 512 := congrFun ht 0
  have q1 : win0_4.index t (1 : Fin 2) = (i 1).val / 4096 := congrFun ht 1
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega
theorem cover5 (i : S8192x8192.Idx) : ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := idx_onto ⟨(i 0).val / 512, by omega⟩ ⟨(i 1).val / 4096, by omega⟩
  have q0 : win0_4.index t (0 : Fin 2) = (i 0).val / 512 := congrFun ht 0
  have q1 : win0_4.index t (1 : Fin 2) = (i 1).val / 4096 := congrFun ht 1
  obtain ⟨-, -, -, -, -, -, -, -, e0, e1, -⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 4096 ≤ (i 1).val ∧ (i 1).val < win0_5.index t (1 : Fin 2) * 4096 + 4096; omega

/-! ## The results after the region -/

/-- The masked distances after the last write-back: the whole-array function of the positions. -/
theorem finalD (c : Dev nD) : (dats m 0 c).arrAt 4 cfg0.N = GD (sqn (pos m c)) (pos m c) :=
  (dats m 0 c).arrAt_eq_of_cover 4 (GD (sqn (pos m c)) (pos m c)) (fun t _ => flushedD_eq m c t) cover4

/-- The mask words after the last write-back. -/
theorem finalW (c : Dev nD) : (dats m 0 c).arrAt 5 cfg0.N = GW (sqn (pos m c)) (pos m c) :=
  (dats m 0 c).arrAt_eq_of_cover 5 (GW (sqn (pos m c)) (pos m c)) (fun t _ => flushedW_eq m c t) cover5

end Cert.KernelIdeal.Hand

end
-- ==== Proof.KClaims.lean ====
/-
  The idealized kernel's run, read at the results: the masked squared distances and the Boolean edge mask are the
  whole-array functions of the positions, and the positions end as launched.

  After the region the last host operations compare the mask words against zero: a widened bit is nonzero exactly when the
  bit is set, so the Boolean mask is the edge bit itself.
-/
import proofs.«115924_j59072980189797_2_alg».proof.Proof.KFinal

set_option maxRecDepth 16384

noncomputable section

namespace Cert.KernelIdeal.Hand

open Cert.KernelIdeal Cert.KernelIdeal.Gen Cert.Radius
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The masked distances at the end: no later operation writes them. -/
theorem Vn_dist (c : Dev nD) :
    (Vn m c (Proc.devRef .tc main_v4_0) : S8192x8192.Idx → Ideal .f32) = GD (sqn (pos m c)) (pos m c) := by
  have h1 : StableHlo.after hostOps1 (Vx m c) (Proc.devRef .tc main_v4_0) = Vx m c (Proc.devRef .tc main_v4_0) := by
    after_results <;> rfl
  exact h1.trans ((Vx_dist m c).trans (finalD m c))

/-- The Boolean mask at the end: the mask words compared against zero. -/
theorem Vn_mask (c : Dev nD) :
    (Vn m c (Proc.devRef .tc main_v7) : S8192x8192.Idx → BitVec 1) = GM (sqn (pos m c)) (pos m c) := by
  have h1 : StableHlo.after hostOps1 (Vx m c) (Proc.devRef .tc main_v7)
      = id (cmpi .ne (Vx m c (Proc.devRef .tc main_v4_1)) (broadcastInDim S8192x8192 ![] bcast_S_S8192x8192 (constantI S_ 32 0#32))) := by
    after_results <;> rfl
  refine h1.trans ?_
  rw [Vx_mask, finalW]
  funext i
  show IntOp.cmpi .ne (GW (sqn (pos m c)) (pos m c) i) 0#32 = GM (sqn (pos m c)) (pos m c) i
  unfold GW GM
  exact ne_zero_setWidth _

/-- THE RUN, READ: at exact arithmetic the program ends with the masked squared distances and the edge mask of the
    launched positions, the positions unchanged. -/
theorem run_value : θ_run defs (onTc (τ := τ) (main (F := Ideal))) ⟨m, fun _ => 0, ρ⟩ (fun r => ∀ c : Dev nD,
      r.2.mem ((c.tc : Thread nD τ).loc main_v4_0) = GD (sqn (pos m c)) (pos m c)
      ∧ r.2.mem ((c.tc : Thread nD τ).loc main_v7) = GM (sqn (pos m c)) (pos m c)
      ∧ r.2.mem ((c.tc : Thread nD τ).loc main_arg0) = m ((c.tc : Thread nD τ).loc main_arg0)) :=
  (θ_run defs _ _).mono (fun r h c => ⟨(h c _ (mem_ucRefs main_v4_0 rfl)).trans (Vn_dist m c),
      (h c _ (mem_ucRefs main_v7 rfl)).trans (Vn_mask m c),
      (h c _ (mem_ucRefs main_arg0 rfl)).trans (Vn_arg0 m c)⟩) (run_main m ρ)

end Cert.KernelIdeal.Hand

end
-- ==== Proof.RValue.lean ====
/-
  The reference at one pair of points.

  Read one operation at a time, the reference's clamped squared distance at the array index (r, c) is
  `max (s_r + s_c - 2 · Σ_k p_r[k] · p_c[k], 0)` with `s` the host's row sums of the squared positions: the two broadcasts
  pick the norms of row r and of row c, and the product with the transposed positions contracts the three coordinates.
  The mask and the masked distance follow elementwise.
-/
import proofs.«115924_j59072980189797_2_alg».proof.Proof.Gen.ReferenceIdeal.Read
import proofs.«115924_j59072980189797_2_alg».proof.Proof.Spec

noncomputable section

namespace Cert.ReferenceIdeal.RefValue

open Cert.ReferenceIdeal Cert.ReferenceIdeal.Gen Cert.ReferenceIdeal.Read Cert.Radius
open Idealize.ShloMosaic Idealize.ShloMosaic.ValueIdx

/-- The squared norms: the host's sum, along each row, of the squared positions. -/
abbrev sqn (A : FVec Ideal S8192x3 .f32) : FVec Ideal S8192 .f32 :=
  Host.reduceAdd (mulf A A) (constant S_ .f32 0x00000000#32) reducesTo_S8192x3_S8192_d1 h_S_

/-- The clamped squared distance at (r, c). -/
theorem dist_at (x0 : FVec Ideal S8192x3 .f32) (i : S8192x8192.Idx) :
    val_main_v13 (F := Ideal) x0 i = dist2 (sqn x0) x0 (i 0) (i 1) := by
  rw [val_main_v13_apply, val_main_v11_apply, val_main_v6_apply, val_main_v4_apply, val_main_v2_apply, val_main_v5_apply,
    val_main_v3_apply, val_main_v10_apply, val_main_v9_apply, val_main_v8_apply, val_main_v12_apply]
  simp only [val_main_v7_apply]
  have ea : idx_main_v2 (idx_main_v4 i) = ix1 (i 0) := funext fun a => Fin.ext (by match a with | ⟨0, _⟩ => rfl)
  have eb : idx_main_v3 (idx_main_v5 i) = ix1 (i 1) := funext fun a => Fin.ext (by match a with | ⟨0, _⟩ => rfl)
  have el : ∀ k : Fin 3, lidx_main_v8 i k = ix2 (i 0) k := fun k => funext fun a => Fin.ext (by match a with | ⟨0, _⟩ => rfl | ⟨1, _⟩ => rfl)
  have er : ∀ k : Fin 3, idx_main_v7 (ridx_main_v8 i k) = ix2 (i 1) k := fun k => funext fun a => Fin.ext (by match a with | ⟨0, _⟩ => rfl | ⟨1, _⟩ => rfl)
  simp only [ea, eb, el, er]
  rfl

/-- The edge mask at (r, c). -/
theorem mask_at (x0 : FVec Ideal S8192x3 .f32) (i : S8192x8192.Idx) :
    val_main_v15 (F := Ideal) x0 i = GM (sqn x0) x0 i := by
  rw [val_main_v15_apply, val_main_v14_apply, dist_at]
  rfl

/-- The masked squared distance at (r, c). -/
theorem masked_at (x0 : FVec Ideal S8192x3 .f32) (i : S8192x8192.Idx) :
    val_main_v16 (F := Ideal) x0 i = GD (sqn x0) x0 i := by
  rw [val_main_v16_apply, val_main_call0_v1_apply, mask_at, dist_at]
  rfl

theorem mask_eq (x0 : FVec Ideal S8192x3 .f32) : val_main_v15 (F := Ideal) x0 = GM (sqn x0) x0 := funext (mask_at x0)
theorem masked_eq (x0 : FVec Ideal S8192x3 .f32) : val_main_v16 (F := Ideal) x0 = GD (sqn x0) x0 := funext (masked_at x0)

end Cert.ReferenceIdeal.RefValue

end
-- ==== Proof.lean ====
/-
  The radius graph: a tiled kernel against its plain reference, over the extended reals.

  Both programs take 8192 points in three dimensions and return, for every pair (r, c), the clamped squared distance
  `max (s_r + s_c - 2 · Σ_k p_r[k] · p_c[k], 0)` where it is at most 1 (and 0 elsewhere) together with the Boolean edge
  mask; `s` is the host's row sum of the squared positions in both.  The kernel computes the pairs block by block over
  a 16 x 2 grid, with the inner products on the matrix unit; the reference computes them with one host product against
  the transposed positions.  At exact arithmetic the two inner products are the same sum of three products and every
  other operation is elementwise and in the same order, so the results agree index by index, with no appeal to the
  inputs' finiteness.

  The kernel's launch is run as three segments of @main (host operations, the region, host operations); the positions
  array is read through two windows of the region and so is held at two half shares while the region runs.  The
  idealization rewrote nothing, so the two frames of the kernel are one argument at two float instances.
-/
import proofs.«115924_j59072980189797_2_alg».proof.Defs
import proofs.«115924_j59072980189797_2_alg».proof.Proof.Gen.Kernel
import proofs.«115924_j59072980189797_2_alg».proof.Proof.Gen.KernelIdeal
import proofs.«115924_j59072980189797_2_alg».proof.Proof.Gen.ReferenceIdeal
import proofs.«115924_j59072980189797_2_alg».proof.Proof.Gen.ReferenceIdeal.Run
import proofs.«115924_j59072980189797_2_alg».proof.Proof.Gen.ReferenceIdeal.Read
import proofs.«115924_j59072980189797_2_alg».proof.Proof.Gen.Pre_finite_inputs
import proofs.«115924_j59072980189797_2_alg».proof.Proof.RunK
import proofs.«115924_j59072980189797_2_alg».proof.Proof.KClaims
import proofs.«115924_j59072980189797_2_alg».proof.Proof.RValue
import Idealize.ShloMosaic.Adequacy
import Idealize.ShloMosaic.Init

noncomputable section

namespace Cert.Proof

open Idealize.ShloMosaic Idealize.ShloMosaic.TcCoe Idealize.SL.Sem Cert.Radius

/-- The kernel as printed runs to the end and leaves the positions unchanged. -/
theorem frame_k : Cert.frame_Kernel := fun m ρ _ => Cert.Kernel.Hand.frame m ρ

/-- So does its reading at exact arithmetic. -/
theorem frame_ki : Cert.frame_KernelIdeal := fun m ρ _ => Cert.KernelIdeal.Hand.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the positions, both programs end with the masked squared distances and the edge mask
    of those positions: the kernel's arrays block by block, the reference's operation by operation, are the same
    whole-array functions. -/
theorem algebraic : Cert.algebraic_KernelIdeal_ReferenceIdeal := by
  intro m ρ m' ρ' _ hagree
  refine ⟨fun c => GD (Cert.KernelIdeal.Hand.sqn (Cert.KernelIdeal.Hand.pos m c)) (Cert.KernelIdeal.Hand.pos m c),
    fun c => GM (Cert.KernelIdeal.Hand.sqn (Cert.KernelIdeal.Hand.pos m c)) (Cert.KernelIdeal.Hand.pos m c),
    Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v16_eq, Cert.ReferenceIdeal.RefValue.masked_eq, hagree c]
  · rw [Cert.ReferenceIdeal.Read.val_main_v15_eq, Cert.ReferenceIdeal.RefValue.mask_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
